-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384 : Shape := ⟨1, ![16384]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16384x1024 .f32) (main_arg1 : IVec S16384 32) (main_arg2 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S16384x1024 : Shape := ⟨2, ![16384, 1024]⟩
abbrev S16384 : Shape := ⟨1, ![16384]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩
abbrev S16384x1 : Shape := ⟨2, ![16384, 1]⟩
abbrev S1024x1 : Shape := ⟨2, ![1024, 1]⟩

abbrev nBuf : Space → Nat
  | .hbm => 31
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .bf16⟩
  | .hbm, ⟨17, _⟩ => ⟨S16384x1, .f32⟩
  | .hbm, ⟨18, _⟩ => ⟨S16384, .f32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S16384, .f32⟩
  | .hbm, ⟨23, _⟩ => ⟨S_, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1, .f32⟩
  | .local _ .vmem, ⟨5, _⟩ => ⟨S1024x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1024x1024_S1024_d1 : S1024x1024.ReducesTo [1] S1024
  h_S_ : 0 < S_.numel
  bcast_S_S1024 : S_.BroadcastsInDim S1024 (![] : Fin 0 → Fin S1024.rank)
  shapeCasts_S1024_S1x1024 : S1024.ShapeCasts S1x1024
  bcast_S_S1024x1024 : S_.BroadcastsInDim S1024x1024 (![] : Fin 0 → Fin S1024x1024.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S16384x1_S16384 : S16384x1.ShapeCasts S16384
  bcast_S_S16384 : S_.BroadcastsInDim S16384 (![] : Fin 0 → Fin S16384.rank)
  reducesTo_S16384_S_d0 : S16384.ReducesTo [0] S_
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .f32 = 32 ∨ (Rect.block (s := S16384x1) S1024x1.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S16384 : Shape := ⟨1, ![16384]⟩
abbrev S1024x1024 : Shape := ⟨2, ![1024, 1024]⟩
abbrev S_ : Shape := ⟨0, ![]⟩
abbrev S1024 : Shape := ⟨1, ![1024]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1024x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S_, .f32⟩
  | .hbm, ⟨14, _⟩ => ⟨S1024, .f32⟩
  | .hbm, ⟨15, _⟩ => ⟨S16384x1, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S16384, .f32⟩
  | .hbm, ⟨46, _⟩ => ⟨S_, .f32⟩
  | .hbm, ⟨47, _⟩ => ⟨S_, .f32⟩
  | .hbm, ⟨48, _⟩ => ⟨S16384, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_c : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  reducesTo_S1024x1024_S1024_d1 : S1024x1024.ReducesTo [1] S1024
  transposes_S1024x1024_S1024x1024_1_0 : S1024x1024.Transposes [1, 0] S1024x1024
  bcast_S16384_S16384x1_0 : S16384.BroadcastsInDim S16384x1 (![0] : Fin 1 → Fin S16384x1.rank)
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S_S16384 : S_.BroadcastsInDim S16384 (![] : Fin 0 → Fin S16384.rank)
  reducesTo_S16384_S_d0 : S16384.ReducesTo [0] S_
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KernelRow.lean ====
/-
  One grid step of the kernel, read one row at a time.

  From a block x0 of 1024 feature rows, the matrix x1 of scaled centres and the row x2 of per-centre constants, the
  body stores, at row p of its 1024 × 1 output block,
      √(max ((Σ_k x0[p,k]² + ε·Σ_k x0[p,k] + E) + min_j (x2[0,j] + Σ_k x0[p,k]·x1[j,k])) 0),
  the minimum over the 1024 centres started from the word of +∞ (`pay_apply`). The pieces: a row sum read at a row
  (`rowsum_apply`), a row minimum read at a row (`rowmin_apply`), and the matrix product against the transposed
  second operand read at an entry (`matmul_nt_apply`).
-/
import proofs.«176569_j90409061580855_2_alg».proof.Proof.Gen.KernelIdeal.Skeleton
import proofs.«176569_j90409061580855_2_alg».proof.Proof.LibKeepdims
import Idealize.ShloMosaic.Lib.ValueIdx
import Idealize.ShloMosaic.Lib.ValueLayout
import Idealize.ShloMosaic.PureOps.Ideal.Laws

noncomputable section

namespace Cert.KernelIdeal.KernelRow

open Idealize.ShloMosaic Idealize.ShloMosaic.ValueIdx Cert.KernelIdeal Cert.KernelIdeal.Gen Cert.Keepdims

/-- A sum along the second axis of a 1024 × 1024 array, read at row p: the sum over the columns. -/
theorem rowsum_apply (src : FVec Ideal S1024x1024 .f32) (hφ : FKind.Formats .f32)
    (hacc : (0x00000000#32 : BitVec 32) = 0x00000000#32) (p : Fin 1024) :
    multiReduction .add [1] S1024 src 0x00000000#32 reduces_S1024x1024_S1024 hφ hacc (ix1 p)
      = ∑ k : Fin 1024, src (ix2 p k) :=
  (Ideal.multiReduction_add_single src 0x00000000#32 reduces_S1024x1024_S1024 hφ hacc (ix1 p)).trans
    (Finset.sum_congr rfl fun k _ => congrArg src (funext fun a => Fin.ext (by
      match a with | ⟨0, _⟩ => rfl | ⟨1, _⟩ => rfl)))

/-- A minimum along the second axis, read at row p: the minimum over the columns, from the start word's value. -/
theorem rowmin_apply (src : FVec Ideal S1024x1024 .f32) (hφ : FKind.Formats .f32)
    (hacc : (0x7F800000#32 : BitVec 32) = 0x7F800000#32) (p : Fin 1024) :
    multiReduction .minimumf [1] S1024 src 0x7F800000#32 reduces_S1024x1024_S1024 hφ hacc (ix1 p)
      = (Finset.univ : Finset (Fin 1024)).fold min (Ideal.ofBits .f32 0x7F800000#32) (fun j => src (ix2 p j)) := by
  classical
  refine (multiReduction_minimumf_eq_fold src 0x7F800000#32 reduces_S1024x1024_S1024 hφ hacc (ix1 p)).trans ?_
  refine (reduces_S1024x1024_S1024.fold_filter_drop_single FloatOps.minimumf _ src (ix1 p)).trans ?_
  exact congrArg (fun f => (Finset.univ : Finset (Fin 1024)).fold min (Ideal.ofBits .f32 0x7F800000#32) f)
    (funext fun j => congrArg src (funext fun a => Fin.ext (by match a with | ⟨0, _⟩ => rfl | ⟨1, _⟩ => rfl)))

theorem lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of a against the transpose of b, into a zero accumulator, at entry (p, j): Σ_k a[p,k]·b[j,k]. -/
theorem matmul_nt_apply (a b : FVec Ideal S1024x1024 .bf16) (p j : Fin 1024) :
    matmul dot_S1024x1024_S1024x1024_S1024x1024_1_1_0_0_n_n none a b (constant S1024x1024 .f32 0x00000000#32) (ix2 p j)
      = ∑ k : Fin 1024, a (ix2 p k) * b (ix2 j k) := by
  simp only [matmul]
  rw [Ideal.matmul_constant_zero_apply,
    ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p j)
      ((contrEquiv1 dot_S1024x1024_S1024x1024_S1024x1024_1_1_0_0_n_n 1024 rfl rfl).symm k) = ix2 p k :=
    funext fun ax => Fin.ext (by
      match ax with
      | ⟨0, _⟩ => exact lhs_0 _ _
      | ⟨1, _⟩ => exact (lhs_1 _ _).trans hk)
  have er : dot_S1024x1024_S1024x1024_S1024x1024_1_1_0_0_n_n.rhsIdx (ix2 p j)
      ((contrEquiv1 dot_S1024x1024_S1024x1024_S1024x1024_1_1_0_0_n_n 1024 rfl rfl).symm k) = ix2 j k :=
    funext fun ax => Fin.ext (by
      match ax with
      | ⟨0, _⟩ => exact rhs_0 _ _
      | ⟨1, _⟩ => exact (rhs_1 _ _).trans hk)
  rw [el, er]

/-- The value one grid step computes for one row: from the row's 1024 features x, the 1024 × 1024 matrix w of scaled
    centres and the 1024 per-centre constants rc,
    √(max ((Σ_k x_k² + ε·Σ_k x_k + E) + min_j (rc_j + Σ_k x_k·w_{j,k})) 0),
    with the float words kept as written (ε, E, the word of +∞ the minimum starts from, the zero word). -/
def rowValue (x : Fin 1024 → EReal) (w : Fin 1024 → Fin 1024 → EReal) (rc : Fin 1024 → EReal) : EReal :=
  Ideal.sqrt (max
    ((((∑ k : Fin 1024, x k * x k) + Ideal.ofBits .f32 0x360637BD#32 * ∑ k : Fin 1024, x k)
        + Ideal.ofBits .f32 0x308CBCCC#32)
      + (Finset.univ : Finset (Fin 1024)).fold min (Ideal.ofBits .f32 0x7F800000#32)
          (fun j => rc j + ∑ k : Fin 1024, x k * w j k))
    (Ideal.ofBits .f32 0x00000000#32))

/-- What the body stores at row p of its output block. -/
theorem pay_apply (x0 : Vec Ideal S1024x1024 .f32) (x1 : Vec Ideal S1024x1024 .bf16) (x2 : Vec Ideal S1x1024 .f32)
    (p : Fin 1024) (q : Fin 1) :
    k0_pay1 (F := Ideal) x0 x1 x2 (ix2 p q)
      = Ideal.sqrt (max
          ((((∑ k : Fin 1024, x0 (ix2 p k) * x0 (ix2 p k))
              + Ideal.ofBits .f32 0x360637BD#32 * ∑ k : Fin 1024, x0 (ix2 p k))
            + Ideal.ofBits .f32 0x308CBCCC#32)
            + (Finset.univ : Finset (Fin 1024)).fold min (Ideal.ofBits .f32 0x7F800000#32)
                (fun j => x2 (ix2 (0 : Fin 1) j) + ∑ k : Fin 1024, x0 (ix2 p k) * x1 (ix2 j k)))
          (Ideal.ofBits .f32 0x00000000#32)) := by
  unfold k0_pay1
  show Ideal.sqrt (max
      (((shapeCast S1024x1 (multiReduction (F := Ideal) .add [1] S1024 (mulf (F := Ideal) x0 x0) 0x00000000#32 reduces_S1024x1024_S1024 (.inl rfl) rfl) shapeCasts_S1024_S1024x1 (ix2 p q)
          + Ideal.ofBits .f32 0x360637BD#32
            * shapeCast S1024x1 (multiReduction (F := Ideal) .add [1] S1024 x0 0x00000000#32 reduces_S1024x1024_S1024 (.inl rfl) rfl) shapeCasts_S1024_S1024x1 (ix2 p q))
        + Ideal.ofBits .f32 0x308CBCCC#32)
        + shapeCast S1024x1 (multiReduction (F := Ideal) .minimumf [1] S1024
            (addf (F := Ideal) (broadcastTo S1024x1024 (shapeCast S1x1024 x2 shapeCasts_S1x1024_S1x1024) broadcasts_S1x1024_S1024x1024)
              (matmul (F := Ideal) dot_S1024x1024_S1024x1024_S1024x1024_1_1_0_0_n_n none (truncf (F := Ideal) .bf16 x0 bitsLt_bf16_f32)
                (shapeCast S1024x1024 x1 shapeCasts_S1024x1024_S1024x1024) (constant (F := Ideal) S1024x1024 .f32 0x00000000#32)))
            0x7F800000#32 reduces_S1024x1024_S1024 (.inl rfl) rfl) shapeCasts_S1024_S1024x1 (ix2 p q))
      (Ideal.ofBits .f32 0x00000000#32)) = _
  rw [shapeCast_a_a1_apply, shapeCast_a_a1_apply, shapeCast_a_a1_apply, rowsum_apply, rowsum_apply, rowmin_apply]
  simp only [mulf_apply, addf_apply, matmul_nt_apply, broadcastTo_1b_ab_apply, shapeCast_self, truncf_apply]

/-- The same at any index y of the 1024 × 1 block, as the row value of row y₀. -/
theorem pay_at (x0 : Vec Ideal S1024x1024 .f32) (x1 : Vec Ideal S1024x1024 .bf16) (x2 : Vec Ideal S1x1024 .f32)
    (y : S1024x1.Idx) :
    k0_pay1 (F := Ideal) x0 x1 x2 y
      = rowValue (fun k => x0 (ix2 (⟨(y 0).val, (y 0).isLt⟩ : Fin 1024) k)) (fun j k => x1 (ix2 j k))
          (fun j => x2 (ix2 (0 : Fin 1) j)) := by
  obtain ⟨p, q, rfl⟩ : ∃ (p : Fin 1024) (q : Fin 1), y = ix2 p q := ⟨y 0, y 1, eq_ix2 y⟩
  exact pay_apply x0 x1 x2 p q

end Cert.KernelIdeal.KernelRow

end
-- ==== Proof.KernelArray.lean ====
/-
  From the grid steps to the whole output column.

  The grid has 16 steps; step t works on feature rows 1024·t … 1024·t + 1023 and sees the whole matrix of scaled
  centres and the whole row of per-centre constants at every step (`idx_facts`). So what step t writes back is block
  t of ONE function of the arrays as the grid finds them: row i of the 16384 × 1 output is the row value of feature
  row i (`colValue`, `flushed_eq`). Row i lies in the block of step i / 1024 (`cover`), hence after the last step the
  output array is that function (`final`).
-/
import proofs.«176569_j90409061580855_2_alg».proof.Proof.Gen.KernelIdeal.Frame
import proofs.«176569_j90409061580855_2_alg».proof.Proof.KernelRow
import Idealize.ShloMosaic.Lib.Pipeline.Value
import Idealize.ShloMosaic.Lib.Tactic

set_option maxRecDepth 16384

noncomputable section

namespace Cert.KernelIdeal.KernelArray

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KernelRow

variable (m : (ℓ : Loc nD τ sig) → Buf (Elt Ideal) ℓ)

theorem hz : (![0, 0] : Fin 2 → Nat) = fun _ => 0 := funext fun a => by fin_cases a <;> rfl

/-- The output column as one function of the feature array X, the scaled centres W and the constants' row RC. -/
def colValue (X : S16384x1024.Idx → EReal) (W : S1024x1024.Idx → EReal) (RC : S1x1024.Idx → EReal) :
    S16384x1.Idx → EReal := fun i =>
  rowValue (fun k => X (ix2 (⟨(i 0).val, (i 0).isLt⟩ : Fin 16384) k)) (fun j k => W (ix2 j k))
    (fun j => RC (ix2 (0 : Fin 1) j))

/-- The block index maps over the 16 steps: features and output move together down the rows, the other two
    operands stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block of step t is rows 1024·t … of the feature array. -/
theorem featBlock_apply (c : Dev nD) (t : Fin cfg0.N) (x : S1024x1024.Idx) (i : S16384x1024.Idx)
    (h0 : (i 0).val = t.val * 1024 + (x 0).val) (h1 : (i 1).val = (x 1).val) :
    (iblk m c 0 t : Vec Ideal S1024x1024 .f32) x = (V m c main_arg0 : S16384x1024.Idx → EReal) i := by
  obtain ⟨e00, e01, -, -, -, -, -, -⟩ := idx_facts t
  show V m c main_arg0 (((cfg0.win 0).blk t).view.emb x) = V m c main_arg0 i
  refine congrArg (V m c main_arg0) (funext fun a => Fin.ext ?_)
  match a with
  | ⟨0, _⟩ => show win0_0.index t (0 : Fin 2) * 1024 + 1 * (x 0).val = (i 0).val; omega
  | ⟨1, _⟩ => show win0_0.index t (1 : Fin 2) * 1024 + 1 * (x 1).val = (i 1).val; omega

/-- The scaled-centres block of any step is the whole array. -/
theorem centBlock_apply (c : Dev nD) (t : Fin cfg0.N) (x : S1024x1024.Idx) :
    (iblk m c 1 t : Vec Ideal S1024x1024 .bf16) x = (V m c main_v9 : S1024x1024.Idx → EReal) x := by
  obtain ⟨-, -, e10, e11, -, -, -, -⟩ := idx_facts t
  show V m c main_v9 (((cfg0.win 1).blk t).view.emb x) = V m c main_v9 x
  refine congrArg (V m c main_v9) (funext fun a => Fin.ext ?_)
  match a with
  | ⟨0, _⟩ => show win0_1.index t (0 : Fin 2) * 1024 + 1 * (x 0).val = (x 0).val; omega
  | ⟨1, _⟩ => show win0_1.index t (1 : Fin 2) * 1024 + 1 * (x 1).val = (x 1).val; omega

/-- The constants' block of any step is the whole row. -/
theorem rowBlock_apply (c : Dev nD) (t : Fin cfg0.N) (x : S1x1024.Idx) :
    (iblk m c 2 t : Vec Ideal S1x1024 .f32) x = (V m c main_v6 : S1x1024.Idx → EReal) x := by
  obtain ⟨-, -, -, -, e20, e21, -, -⟩ := idx_facts t
  show V m c main_v6 (((cfg0.win 2).blk t).view.emb x) = V m c main_v6 x
  refine congrArg (V m c main_v6) (funext fun a => Fin.ext ?_)
  match a with
  | ⟨0, _⟩ => show win0_2.index t (0 : Fin 2) * 1 + 1 * (x 0).val = (x 0).val; omega
  | ⟨1, _⟩ => show win0_2.index t (1 : Fin 2) * 1024 + 1 * (x 1).val = (x 1).val; omega

/-- What step t writes back is block t of the output column's function. -/
theorem flushed_eq (c : Dev nD) (t : Fin cfg0.N) :
    (dats m 0 c).flushed 3 t
      = ((cfg0.win 3).blk t).view.read (Elt Ideal) (colValue (V m c main_arg0) (V m c main_v9) (V m c main_v6)) := by
  show (cfg0.win 3).cut (grid0.coords t) ((dats m 0 c).after 3 t) = _
  rw [after0_3]
  unfold out0_3
  rw [View.canon_unit_zero hz]
  simp only [View.ld_unit_zero (S := S1024x1024) hz, View.ld_unit_zero (S := S1x1024) hz]
  obtain ⟨-, -, -, -, -, -, e30, e31⟩ := idx_facts t
  funext y
  show k0_pay1 (F := Ideal) (iblk m c 0 t) (iblk m c 1 t) (iblk m c 2 t) y
    = colValue (V m c main_arg0) (V m c main_v9) (V m c main_v6) (((cfg0.win 3).blk t).view.emb y)
  refine (pay_at (iblk m c 0 t) (iblk m c 1 t) (iblk m c 2 t) y).trans ?_
  unfold colValue
  refine congr (congr (congrArg rowValue (funext fun k => ?_)) (funext fun j => funext fun k => ?_)) (funext fun j => ?_)
  · refine featBlock_apply m c t _ _ ?_ rfl
    show win0_3.index t (0 : Fin 2) * 1024 + 1 * (y 0).val = t.val * 1024 + (y 0).val
    omega
  · exact centBlock_apply m c t _
  · exact rowBlock_apply m c t _

/-- An index of the output column is in step t's block iff each coordinate is in the block's range on its axis. -/
theorem mem_blk (t : Fin cfg0.N) (i : S16384x1.Idx) :
    i ∈ ((cfg0.win 3).blk t).view.set
      ↔ ∀ a : Fin 2, win0_3.index t a * S1024x1.size a ≤ (i a).val
          ∧ (i a).val < win0_3.index t a * S1024x1.size a + S1024x1.size a := by
  show i ∈ ((View.whole main_v10).slice (win0_3.rect t)).set ↔ _
  rw [View.set_slice_whole, Rect.mem_set_unit]
  exact Iff.rfl

/-- Row i of the output column is written back by step i / 1024. -/
theorem cover (i : S16384x1.Idx) :
    ∃ t : Fin cfg0.N, (cfg0.win 3).flush t = true ∧ i ∈ ((cfg0.win 3).blk t).view.set := by
  have hi0 : (i 0).val < 16384 := (i 0).isLt
  have hi1 : (i 1).val < 1 := (i 1).isLt
  have hN : cfg0.N = 16 := N_0
  obtain ⟨-, -, -, -, -, -, e30, e31⟩ := idx_facts ⟨(i 0).val / 1024, by rw [hN]; omega⟩
  refine ⟨⟨(i 0).val / 1024, by rw [hN]; omega⟩, flush0_3 _, ?_⟩
  rw [mem_blk]
  intro a
  match a with
  | ⟨0, _⟩ =>
    show win0_3.index _ (0 : Fin 2) * 1024 ≤ (i 0).val ∧ (i 0).val < win0_3.index _ (0 : Fin 2) * 1024 + 1024
    rw [e30]
    show (i 0).val / 1024 * 1024 ≤ (i 0).val ∧ (i 0).val < (i 0).val / 1024 * 1024 + 1024
    omega
  | ⟨1, _⟩ =>
    show win0_3.index _ (1 : Fin 2) * 1 ≤ (i 1).val ∧ (i 1).val < win0_3.index _ (1 : Fin 2) * 1 + 1
    rw [e31]
    omega

/-- After the last step the output array is the output column's function of the arrays the grid found. -/
theorem final (c : Dev nD) :
    (dats m 0 c).arrAt 3 cfg0.N = colValue (V m c main_arg0) (V m c main_v9) (V m c main_v6) :=
  (dats m 0 c).arrAt_eq_of_cover 3 (colValue (V m c main_arg0) (V m c main_v9) (V m c main_v6))
    (fun t _ => flushed_eq m c t) cover

end Cert.KernelIdeal.KernelArray

end
-- ==== Proof.Prefix.lean ====
/-
  What the host computes before the grid runs, read at an entry.

  The second operand of the kernel is the centres scaled by the word of −2 (the change of float format that follows
  is the identity on extended reals): entry (j, k) is that word's value times C[j,k] (`scaled_apply`). The third is a
  row of per-centre constants: entry (0, j) is Σ_k C[j,k]² − ε·Σ_k C[j,k], each sum started from the zero word
  (`centreRow_apply`).
-/
import proofs.«176569_j90409061580855_2_alg».proof.Proof.Gen.KernelIdeal.Frame
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.Prefix

open Idealize.ShloMosaic Idealize.ShloMosaic.TcCoe Idealize.SL.Sem Idealize.ShloMosaic.ValueIdx
open Idealize.ShloMosaic.StableHlo Cert.KernelIdeal Cert.KernelIdeal.Gen

variable (m : (ℓ : Loc nD τ sig) → Buf (Elt Ideal) ℓ)

/-- The host's sum along the second axis of a 1024 × 1024 array, read at row j: the start value plus the sum over
    the columns. -/
theorem hostRowsum_apply (x : FVec Ideal S1024x1024 .f32) (v : FVec Ideal S_ .f32) (j : Fin 1024) :
    Host.reduceAdd (F := Ideal) x v reducesTo_S1024x1024_S1024_d1 h_S_ (ix1 j)
      = v (Shape.Idx.first h_S_) + ∑ k : Fin 1024, x (ix2 j k) := by
  simp only [Host.reduceAdd, Ideal.hostReduceAdd_def]
  rw [Ideal.hostReduceAdd_single reducesTo_S1024x1024_S1024_d1 (by decide)]
  exact congrArg (_ + ·) (Finset.sum_congr rfl fun k _ => congrArg x (funext fun a => Fin.ext (by
    match a with | ⟨0, _⟩ => rfl | ⟨1, _⟩ => rfl)))

/-- The scaled centres as the grid finds them. -/
theorem scaled_eq (c : Dev nD) :
    (V m c main_v9 : S1024x1024.Idx → EReal)
      = fun i => Ideal.ofBits .f32 0xC0000000#32 * (m ((c : Thread nD τ).loc main_arg2) : S1024x1024.Idx → EReal) i := by
  show StableHlo.after hostOps0 (fun b => m (c, b)) (Proc.devRef .tc main_v9) = _
  after_results
  rfl

theorem scaled_apply (c : Dev nD) (C : S1024x1024.Idx → EReal) (hC : m ((c : Thread nD τ).loc main_arg2) = C)
    (i : S1024x1024.Idx) :
    (V m c main_v9 : S1024x1024.Idx → EReal) i = Ideal.ofBits .f32 0xC0000000#32 * C i := by
  subst hC
  exact congrFun (scaled_eq m c) i

/-- The row of per-centre constants as the grid finds it: a vector laid out as one row. -/
theorem centreRow_eq (c : Dev nD) :
    (V m c main_v6 : S1x1024.Idx → EReal)
      = shapeCast S1x1024
          (subf (F := Ideal)
            (Host.reduceAdd (F := Ideal) (mulf (F := Ideal) (m ((c : Thread nD τ).loc main_arg2)) (m ((c : Thread nD τ).loc main_arg2)))
              (constant (F := Ideal) S_ .f32 0x00000000#32) reducesTo_S1024x1024_S1024_d1 h_S_)
            (mulf (F := Ideal) (broadcastInDim S1024 ![] bcast_S_S1024 (constant (F := Ideal) S_ .f32 0x360637BD#32))
              (Host.reduceAdd (F := Ideal) (m ((c : Thread nD τ).loc main_arg2)) (constant (F := Ideal) S_ .f32 0x00000000#32)
                reducesTo_S1024x1024_S1024_d1 h_S_)))
          shapeCasts_S1024_S1x1024 := by
  show StableHlo.after hostOps0 (fun b => m (c, b)) (Proc.devRef .tc main_v6) = _
  after_results
  rfl

theorem centreRow_apply (c : Dev nD) (C : S1024x1024.Idx → EReal) (hC : m ((c : Thread nD τ).loc main_arg2) = C)
    (j : Fin 1024) :
    (V m c main_v6 : S1x1024.Idx → EReal) (ix2 (0 : Fin 1) j)
      = (Ideal.ofBits .f32 0x00000000#32 + ∑ k : Fin 1024, C (ix2 j k) * C (ix2 j k))
          - Ideal.ofBits .f32 0x360637BD#32 * (Ideal.ofBits .f32 0x00000000#32 + ∑ k : Fin 1024, C (ix2 j k)) := by
  subst hC
  refine (congrFun (centreRow_eq m c) (ix2 (0 : Fin 1) j)).trans ?_
  rw [shapeCast_a_1a_apply, subf_apply, mulf_apply, hostRowsum_apply, hostRowsum_apply]
  rfl

end Cert.KernelIdeal.Prefix

end
-- ==== Proof.RefRow.lean ====
/-
  The reference, read one row at a time.

  Entry (r, j) of the reference's distance matrix is √(max sq 0) with
      sq = ((Σ_k X[r,k]² + Σ_k C[j,k]²) − 2·Σ_k X[r,k]·C[j,k]) + ε·(Σ_k X[r,k] − Σ_k C[j,k]) + E,
  every sum over the 1024 coordinates and started from the zero word (`dist_apply`); entry r of its row minimum is
  the minimum over the 1024 centres j of those, started from +∞ (`rowmin_apply`).
-/
import proofs.«176569_j90409061580855_2_alg».proof.Proof.Gen.ReferenceIdeal.Read
import Idealize.ShloMosaic.Lib.ValueIdx
import Idealize.ShloMosaic.PureOps.Ideal.Laws

noncomputable section

namespace Cert.ReferenceIdeal.RefRow

open Idealize.ShloMosaic Idealize.ShloMosaic.ValueIdx Cert.ReferenceIdeal Cert.ReferenceIdeal.Gen Cert.ReferenceIdeal.Read

/-- One entry of the reference's distance matrix, as sums over the coordinate index. -/
theorem dist_apply (X : (⟨S16384x1024, .f32⟩ : BufTy).Contents (Elt Ideal)) (C : (⟨S1024x1024, .f32⟩ : BufTy).Contents (Elt Ideal))
    (r : Fin 16384) (j : Fin 1024) :
    val_main_v28 (F := Ideal) X C (ix2 r j)
      = Ideal.sqrt (max
          (((((Ideal.ofBits .f32 0x00000000#32 + ∑ k : Fin 1024, X (ix2 r k) * X (ix2 r k))
                + (Ideal.ofBits .f32 0x00000000#32 + ∑ k : Fin 1024, C (ix2 j k) * C (ix2 j k)))
              - Ideal.ofBits .f32 0x40000000#32 * ∑ k : Fin 1024, X (ix2 r k) * C (ix2 j k))
            + Ideal.ofBits .f32 0x360637BD#32
                * ((Ideal.ofBits .f32 0x00000000#32 + ∑ k : Fin 1024, X (ix2 r k))
                    - (Ideal.ofBits .f32 0x00000000#32 + ∑ k : Fin 1024, C (ix2 j k))))
            + Ideal.ofBits .f32 0x308CBCCC#32)
          (Ideal.ofBits .f32 0x00000000#32)) := by
  have e1 : ∀ k, idx_main_v1 (idx_main_v8 (idx_main_v10 (ix2 r j))) k = ix2 r k := fun k =>
    funext fun a => Fin.ext (by match a with | ⟨0, _⟩ => rfl | ⟨1, _⟩ => rfl)
  have e3 : ∀ k, idx_main_v3 (idx_main_v9 (idx_main_v11 (ix2 r j))) k = ix2 j k := fun k =>
    funext fun a => Fin.ext (by match a with | ⟨0, _⟩ => rfl | ⟨1, _⟩ => rfl)
  have e5l : ∀ k, lidx_main_v5 (ix2 r j) k = ix2 r k := fun k =>
    funext fun a => Fin.ext (by match a with | ⟨0, _⟩ => rfl | ⟨1, _⟩ => rfl)
  have e5r : ∀ k, idx_main_v4 (ridx_main_v5 (ix2 r j) k) = ix2 j k := fun k =>
    funext fun a => Fin.ext (by match a with | ⟨0, _⟩ => rfl | ⟨1, _⟩ => rfl)
  have e6 : ∀ k, idx_main_v6 (idx_main_v16 (idx_main_v18 (ix2 r j))) k = ix2 r k := fun k =>
    funext fun a => Fin.ext (by match a with | ⟨0, _⟩ => rfl | ⟨1, _⟩ => rfl)
  have e7 : ∀ k, idx_main_v7 (idx_main_v17 (idx_main_v19 (ix2 r j))) k = ix2 j k := fun k =>
    funext fun a => Fin.ext (by match a with | ⟨0, _⟩ => rfl | ⟨1, _⟩ => rfl)
  simp only [val_main_v28_apply, val_main_v27_apply, val_main_v26_apply, val_main_cst_6_apply, val_main_v25_apply,
    val_main_v24_apply, val_main_cst_5_apply, val_main_v23_apply, val_main_v22_apply, val_main_v21_apply,
    val_main_cst_4_apply, val_main_v20_apply, val_main_v19_apply, val_main_v18_apply, val_main_v17_apply,
    val_main_v16_apply, val_main_v15_apply, val_main_v14_apply, val_main_v13_apply, val_main_cst_3_apply,
    val_main_v12_apply, val_main_v11_apply, val_main_v10_apply, val_main_v9_apply, val_main_v8_apply,
    val_main_v7_apply, val_main_cst_2_apply, val_main_v6_apply, val_main_cst_1_apply, val_main_v5_apply,
    val_main_v4_apply, val_main_v3_apply, val_main_cst_0_apply, val_main_v2_apply, val_main_v1_apply,
    val_main_cst_apply, val_main_v0_apply, e1, e3, e5l, e5r, e6, e7,
    Ideal.hostUnary_sqrt_def, Ideal.maximumf_def, Ideal.addf_def, Ideal.subf_def, Ideal.mulf_def, Ideal.ofBits_def]

/-- One entry of the reference's row minimum: the minimum over the centres, started from the word of +∞. -/
theorem rowmin_apply (X : (⟨S16384x1024, .f32⟩ : BufTy).Contents (Elt Ideal)) (C : (⟨S1024x1024, .f32⟩ : BufTy).Contents (Elt Ideal))
    (r : Fin 16384) :
    val_main_v29 (F := Ideal) X C (ix1 r)
      = (Finset.univ : Finset (Fin 1024)).fold min (Ideal.ofBits .f32 0x7F800000#32)
          (fun j => val_main_v28 (F := Ideal) X C (ix2 r j)) := by
  unfold val_main_v29
  generalize val_main_v28 (F := Ideal) X C = Y
  have hR : S16384x1024.Reduces [1] S16384 := by decide
  refine (Host.reduce_eq_fold_single (FloatOps.minimumf (F := Ideal) (φ := .f32)) Y (val_main_cst_7 (F := Ideal)) reducesTo_S16384x1024_S16384_d1 hR h_S_ (ix1 r)).trans ?_
  exact congrArg (fun f => (Finset.univ : Finset (Fin 1024)).fold min (Ideal.ofBits .f32 0x7F800000#32) f)
    (funext fun j => congrArg Y (funext fun a => Fin.ext (by match a with | ⟨0, _⟩ => rfl | ⟨1, _⟩ => rfl)))

end Cert.ReferenceIdeal.RefRow

end
-- ==== Proof.LibMinFold.lean ====
/-
  Two facts about the extended reals used when a minimum is taken before or after a monotone step.

  * A monotone map between linear orders commutes with the minimum of two values, hence with a fold of
    `min` over a finite family: mapping the folded minimum is folding the mapped values from the mapped
    start value (`map_fold_min`).
  * The square root of the positive part, y ↦ √(max y 0), is monotone on the whole extended line
    (`sqrt_max_zero_mono`): the positive part is monotone and nonnegative, and on nonnegative extended
    reals the square root (with √⊤ = ⊤) preserves order (`sqrt_le_sqrt_of_nonneg`). Shifting the argument
    by a real first keeps this, and sends ⊤ to ⊤ (`shift_sqrt_mono`, `shift_sqrt_top`).
-/
import Idealize.ShloMosaic.PureOps.Ideal
import Mathlib.Data.Finset.Fold

namespace Cert.Lib.MinFold

open Idealize.ShloMosaic

/-- A monotone map carries a folded minimum to the folded minimum of the images, the start value mapped too. -/
theorem map_fold_min {α β ι : Type*} [LinearOrder α] [LinearOrder β] {h : α → β} (hm : Monotone h)
    (s : Finset ι) (b : α) (f : ι → α) :
    h (s.fold min b f) = s.fold min (h b) (fun i => h (f i)) :=
  (Finset.fold_hom (op := min) (op' := min) (m := h) (fun _ _ => hm.map_min)).symm

/-- On nonnegative extended reals the square root preserves order. -/
theorem sqrt_le_sqrt_of_nonneg {u v : EReal} (hu : 0 ≤ u) (huv : u ≤ v) : Ideal.sqrt u ≤ Ideal.sqrt v := by
  induction v using EReal.rec with
  | bot => exact absurd (hu.trans huv) (by simp)
  | top => rw [Ideal.sqrt_top]; exact le_top
  | coe s =>
    induction u using EReal.rec with
    | bot => exact absurd hu (by simp)
    | top => exact absurd huv (by simp)
    | coe r =>
      have hr : 0 ≤ r := EReal.coe_nonneg.mp hu
      have hrs : r ≤ s := EReal.coe_le_coe_iff.mp huv
      rw [Ideal.sqrt_coe, Ideal.sqrt_coe, if_neg (not_lt.mpr hr), if_neg (not_lt.mpr (hr.trans hrs))]
      exact EReal.coe_le_coe_iff.mpr (Real.sqrt_le_sqrt hrs)

/-- y ↦ √(max y 0) is monotone on the extended reals. -/
theorem sqrt_max_zero_mono : Monotone fun y : EReal => Ideal.sqrt (max y 0) := fun _ _ hab =>
  sqrt_le_sqrt_of_nonneg (le_max_right _ _) (max_le_max hab le_rfl)

/-- So is y ↦ √(max (a + y) 0) for any extended real a. -/
theorem shift_sqrt_mono (a : EReal) : Monotone fun y : EReal => Ideal.sqrt (max (a + y) 0) := fun _ _ hab =>
  sqrt_max_zero_mono (add_le_add le_rfl hab)

/-- For a real a it sends ⊤ to ⊤. -/
theorem shift_sqrt_top (a : ℝ) : Ideal.sqrt (max ((a : EReal) + ⊤) 0) = ⊤ := by
  rw [EReal.coe_add_top, max_eq_left le_top, Ideal.sqrt_top]

end Cert.Lib.MinFold
-- ==== Proof.RowLaw.lean ====
/-
  The per-row identity behind the kernel.

  For one feature row x and centres c_j (all entries real), with ε and E real constants, the squared distance to
  centre j in the expanded form
      sq_j = ‖x‖² + ‖c_j‖² − 2·⟨x, c_j⟩ + ε·(Σx − Σc_j) + E
  splits into a part that does not depend on j and a part that does:
      sq_j = (‖x‖² + ε·Σx + E) + ((‖c_j‖² − ε·Σc_j) + ⟨x, −2·c_j⟩).
  Since y ↦ √(max (a + y) 0) is monotone and sends ⊤ to ⊤, it commutes with the minimum over j: the square root
  of the clamped smallest squared distance is the smallest of the clamped square roots. Distributing ε and −2
  over the sums needs the entries to be finite, which is why both hypotheses ask for reals.
-/
import proofs.«176569_j90409061580855_2_alg».proof.Proof.LibMinFold
import Mathlib.Algebra.BigOperators.Ring.Finset

namespace Cert.RowLaw

open Idealize.ShloMosaic Cert.Lib.MinFold

/-- A finite sum of reals, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem row_law {ι κ : Type*} [Fintype ι] [Fintype κ] (x : ι → EReal) (c : κ → ι → EReal)
    (hx : ∀ k, ∃ r : ℝ, x k = r) (hc : ∀ j k, ∃ r : ℝ, c j k = r) (e E : EReal)
    (he : ∃ r : ℝ, e = r) (hE : ∃ r : ℝ, E = r) :
    Ideal.sqrt (max ((((∑ k, x k * x k) + e * ∑ k, x k) + E)
        + Finset.univ.fold min ⊤ (fun j => ((0 + ∑ k, c j k * c j k) - e * (0 + ∑ k, c j k))
            + ∑ k, x k * (((-2 : ℝ) : EReal) * c j k))) 0)
      = Finset.univ.fold min ⊤ (fun j => Ideal.sqrt (max
          ((((((0 + ∑ k, x k * x k) + (0 + ∑ k, c j k * c j k)) - ((2 : ℝ) : EReal) * ∑ k, x k * c j k)
            + e * ((0 + ∑ k, x k) - (0 + ∑ k, c j k))) + E)) 0)) := by
  choose x' hx' using hx
  choose c' hc' using hc
  obtain ⟨e', rfl⟩ := he
  obtain ⟨E', rfl⟩ := hE
  obtain rfl : x = fun k => (x' k : EReal) := funext hx'
  obtain rfl : c = fun j k => (c' j k : EReal) := funext fun j => funext (hc' j)
  simp only [zero_add, ← EReal.coe_mul, ← coe_sum, ← EReal.coe_add, ← EReal.coe_sub]
  refine (map_fold_min (shift_sqrt_mono ((∑ i, x' i * x' i + e' * ∑ i, x' i + E' : ℝ) : EReal)) Finset.univ ⊤ _).trans ?_
  beta_reduce
  rw [shift_sqrt_top]
  refine Finset.fold_congr fun j _ => ?_
  have hdot : ∑ i, x' i * (-2 * c' j i) = -2 * ∑ i, x' i * c' j i := by
    rw [Finset.mul_sum]; exact Finset.sum_congr rfl fun i _ => by ring
  rw [← EReal.coe_add, hdot]
  refine congrArg (fun y : ℝ => Ideal.sqrt (max (y : EReal) 0)) ?_
  ring

end Cert.RowLaw
-- ==== Proof.LibWords.lean ====
/-
  Float words read as extended reals.

  A word of an IEEE-style format whose exponent field is not all ones denotes a real number (a zero, a subnormal or
  a normal: never an infinity, never the junk value of a NaN pattern): `ieee_real`, and `f32_real` for 32-bit
  words, where the side condition is decided on a literal word. Three literal words: 2.0, −2.0 and +∞.
-/
import Idealize.ShloMosaic.PureOps.Ideal

namespace Cert.Lib.Words

open Idealize.ShloMosaic

/-- A pattern whose exponent field is not all ones denotes a real. -/
theorem ieee_real (e m : Nat) {w : Nat} (b : BitVec w) (h : (b.extractLsb' m e).toNat ≠ 2 ^ e - 1) :
    ∃ r : ℝ, Ideal.ieee e m b = (r : EReal) := by
  unfold Ideal.ieee
  simp only []
  rw [if_neg h]
  split_ifs <;> exact ⟨_, rfl⟩

/-- The same for a 32-bit float word: exponent field (bits 23–30) not 255. -/
theorem f32_real (b : BitVec 32) (h : (b.extractLsb' 23 8).toNat ≠ 255) :
    ∃ r : ℝ, Ideal.ofBits .f32 b = (r : EReal) := ieee_real 8 23 b h

/-- 0x40000000 is 2. -/
theorem word_two : Ideal.ofBits .f32 0x40000000#32 = ((2 : ℝ) : EReal) := by
  simp [Ideal.ofBits, Ideal.ieee, -EReal.coe_mul]; norm_num

/-- 0xC0000000 is −2. -/
theorem word_neg_two : Ideal.ofBits .f32 0xC0000000#32 = ((-2 : ℝ) : EReal) := by
  simp [Ideal.ofBits, Ideal.ieee, -EReal.coe_mul]; norm_num

/-- 0x7F800000 is +∞. -/
theorem word_inf : Ideal.ofBits .f32 0x7F800000#32 = ⊤ := by
  simp [Ideal.ofBits, Ideal.ieee]

/-- An extended real whose absolute value compares below the word of +∞ is a real. -/
theorem real_of_abs_lt_inf (x : EReal)
    (h : Ideal.cmp .olt (max x (-x)) (Ideal.ofBits .f32 0x7F800000#32) = 1#1) : ∃ r : ℝ, x = (r : EReal) := by
  rw [word_inf] at h
  induction x using EReal.rec with
  | bot => simp [Ideal.cmp] at h
  | top => simp [Ideal.cmp] at h
  | coe r => exact ⟨r, rfl⟩

end Cert.Lib.Words
-- ==== Proof.Bridge.lean ====
/-
  One row of the kernel's output column is one entry of the reference's row minimum.

  With the scaled centres −2·C and the per-centre constants Σ_k C[j,k]² − ε·Σ_k C[j,k] put into the kernel's row value,
  and the words of 0, 2, −2 and +∞ read as those numbers, the two sides are the two sides of the per-row identity:
  the kernel takes the minimum over the centres of the part of the squared distance that depends on the centre and
  applies the clamped square root once, the reference applies it to every squared distance and then takes the
  minimum. Finite inputs are what the identity needs.
-/
import proofs.«176569_j90409061580855_2_alg».proof.Proof.KernelRow
import proofs.«176569_j90409061580855_2_alg».proof.Proof.RefRow
import proofs.«176569_j90409061580855_2_alg».proof.Proof.RowLaw
import proofs.«176569_j90409061580855_2_alg».proof.Proof.LibWords

namespace Cert.Bridge

open Idealize.ShloMosaic Idealize.ShloMosaic.ValueIdx Cert.Lib.Words

theorem row_bridge (X : (⟨Cert.ReferenceIdeal.S16384x1024, .f32⟩ : BufTy).Contents (Elt Ideal))
    (C : (⟨Cert.ReferenceIdeal.S1024x1024, .f32⟩ : BufTy).Contents (Elt Ideal))
    (hX : ∀ i, ∃ r : ℝ, X i = (r : EReal)) (hC : ∀ i, ∃ r : ℝ, C i = (r : EReal)) (r : Fin 16384) :
    Cert.KernelIdeal.KernelRow.rowValue (fun k => X (ix2 r k))
        (fun j k => Ideal.ofBits .f32 0xC0000000#32 * C (ix2 j k))
        (fun j => (Ideal.ofBits .f32 0x00000000#32 + ∑ k : Fin 1024, C (ix2 j k) * C (ix2 j k))
          - Ideal.ofBits .f32 0x360637BD#32 * (Ideal.ofBits .f32 0x00000000#32 + ∑ k : Fin 1024, C (ix2 j k)))
      = Cert.ReferenceIdeal.Read.val_main_v29 (F := Ideal) X C (ix1 r) := by
  rw [Cert.ReferenceIdeal.RefRow.rowmin_apply]
  simp only [Cert.ReferenceIdeal.RefRow.dist_apply]
  unfold Cert.KernelIdeal.KernelRow.rowValue
  obtain ⟨e', he⟩ := f32_real 0x360637BD#32 (by decide)
  obtain ⟨E', hE⟩ := f32_real 0x308CBCCC#32 (by decide)
  rw [Ideal.ofBits_zero_f32, word_inf, word_two, word_neg_two]
  exact Cert.RowLaw.row_law (fun k => X (ix2 r k)) (fun j k => C (ix2 j k)) (fun k => hX _) (fun j k => hC _) _ _
    ⟨e', he⟩ ⟨E', hE⟩

end Cert.Bridge
-- ==== Proof.LibColumn.lean ====
/-
  A column read back as a vector: an `a × 1` array cast to `a` entries reads, at `i`, the column's entry (i, 0)
  (the row-major position `i · 1 + 0` is `i`). The converse of a row reduction kept as a column.
-/
import Idealize.ShloMosaic.Lib.ValueIdx
import Idealize.ShloMosaic.Lib.Pipeline.Value

namespace Cert.Lib.Column

open Idealize.ShloMosaic Idealize.ShloMosaic.ValueIdx

variable {α : Type}

theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib.Column
-- ==== Proof.KernelValue.lean ====
/-
  The kernel program's result.

  After the grid, the host reshapes the output column to a vector, masks it by label = 0, and divides the masked
  sum by the count plus a constant: the same closing lines as the reference's, applied there to its row minimum
  (`tail`, `ref_is_tail`). So it is enough that the column, read back as a vector, is the reference's row minimum
  entry by entry — the per-row identity, at the arrays the grid found: the features untouched, the centres scaled
  by the word of −2, and the per-centre constants' row (`kernel_result`).
-/
import proofs.«176569_j90409061580855_2_alg».proof.Proof.KernelArray
import proofs.«176569_j90409061580855_2_alg».proof.Proof.Prefix
import proofs.«176569_j90409061580855_2_alg».proof.Proof.Bridge
import proofs.«176569_j90409061580855_2_alg».proof.Proof.LibColumn
import Idealize.ShloMosaic.Lib.StableHlo.Run

set_option maxRecDepth 16384

noncomputable section

namespace Cert.KernelValue

open Idealize.ShloMosaic Idealize.ShloMosaic.TcCoe Idealize.SL.Sem Idealize.ShloMosaic.ValueIdx
open Idealize.ShloMosaic.StableHlo Cert.Lib.Column

/-- The closing lines both programs share: y masked by label = 0, summed, over the count of such labels plus a
    constant. -/
def tail (y : FVec Ideal Cert.ReferenceIdeal.S16384 .f32) (L : IVec Cert.ReferenceIdeal.S16384 32) :
    FVec Ideal Cert.ReferenceIdeal.S_ .f32 :=
  Host.divf (F := Ideal) (φ := .f32)
    (Host.reduceAdd (F := Ideal) (φ := .f32) (mulf (F := Ideal) (φ := .f32) y (Cert.ReferenceIdeal.Read.val_main_v32 (F := Ideal) L))
      (Cert.ReferenceIdeal.Read.val_main_cst_9 (F := Ideal)) Cert.ReferenceIdeal.Gen.reducesTo_S16384_S_d0
      Cert.ReferenceIdeal.Gen.h_S_)
    (Cert.ReferenceIdeal.Read.val_main_v36 (F := Ideal) L)

/-- The reference's result is the closing lines applied to its row minimum. -/
theorem ref_is_tail (X : (⟨Cert.ReferenceIdeal.S16384x1024, .f32⟩ : BufTy).Contents (Elt Ideal))
    (L : (⟨Cert.ReferenceIdeal.S16384, .i32⟩ : BufTy).Contents (Elt Ideal))
    (C : (⟨Cert.ReferenceIdeal.S1024x1024, .f32⟩ : BufTy).Contents (Elt Ideal)) :
    Cert.ReferenceIdeal.Read.val_main_v37 (F := Ideal) X L C
      = tail (Cert.ReferenceIdeal.Read.val_main_v29 (F := Ideal) X C) L := rfl

open Cert.KernelIdeal Cert.KernelIdeal.Gen Cert.KernelIdeal.KernelRow Cert.KernelIdeal.KernelArray Cert.KernelIdeal.Prefix

variable (m : (ℓ : Loc nD τ sig) → Buf (Elt Ideal) ℓ)

/-- Row r of the output column at the arrays the grid found, in the per-row identity's vocabulary. -/
theorem col_apply (c : Dev nD) (X : S16384x1024.Idx → EReal) (hX : m ((c : Thread nD τ).loc main_arg0) = X)
    (C : S1024x1024.Idx → EReal) (hC : m ((c : Thread nD τ).loc main_arg2) = C) (r : Fin 16384) :
    colValue (V m c main_arg0) (V m c main_v9) (V m c main_v6) (ix2 r (0 : Fin 1))
      = rowValue (fun k => X (ix2 r k)) (fun j k => Ideal.ofBits .f32 0xC0000000#32 * C (ix2 j k))
          (fun j => (Ideal.ofBits .f32 0x00000000#32 + ∑ k : Fin 1024, C (ix2 j k) * C (ix2 j k))
            - Ideal.ofBits .f32 0x360637BD#32 * (Ideal.ofBits .f32 0x00000000#32 + ∑ k : Fin 1024, C (ix2 j k))) := by
  unfold colValue
  refine congr (congr (congrArg rowValue (funext fun k => ?_)) (funext fun j => funext fun k => ?_)) (funext fun j => ?_)
  · subst hX; exact congrFun (V_main_arg0 m c) _
  · exact scaled_apply m c C hC _
  · exact centreRow_apply m c C hC j

/-- The kernel program's result, under finite features and centres, is the reference's result term. -/
theorem kernel_result (c : Dev nD)
    (hX : ∀ i, ∃ r : ℝ, (m ((c : Thread nD τ).loc main_arg0) : S16384x1024.Idx → EReal) i = (r : EReal))
    (hC : ∀ i, ∃ r : ℝ, (m ((c : Thread nD τ).loc main_arg2) : S1024x1024.Idx → EReal) i = (r : EReal)) :
    Pipeline.afterTail₀ cfgs (dats m) 0 (V0 m) [hostOps1] c main_v19
      = Cert.ReferenceIdeal.Read.val_main_v37 (F := Ideal) (m ((c : Thread nD τ).loc main_arg0))
          (m ((c : Thread nD τ).loc main_arg1)) (m ((c : Thread nD τ).loc main_arg2)) := by
  have hA : Pipeline.withArrays (cfgs 0).spec c (V0 m c) (fun w => (dats m 0 c).arrAt w (cfgs 0).N) (Proc.devRef .tc main_v10)
      = colValue (V m c main_arg0) (V m c main_v9) (V m c main_v6) :=
    (Pipeline.withArrays_arr spec0 launch0.win.arr_inj c _ _ 3).trans (final m c)
  have hL : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  unfold Pipeline.afterTail₀
  show StableHlo.after hostOps1 _ (Proc.devRef .tc main_v19) = _
  after_results
  rw [hA, hL, ref_is_tail]
  show tail (shapeCast Cert.ReferenceIdeal.S16384 (colValue (V m c main_arg0) (V m c main_v9) (V m c main_v6))
      shapeCasts_S16384x1_S16384) (m ((c : Thread nD τ).loc main_arg1)) = _
  refine congrArg (fun y => tail y (m ((c : Thread nD τ).loc main_arg1))) (funext fun i => ?_)
  obtain ⟨r, rfl⟩ : ∃ r : Fin 16384, i = ix1 r := ⟨i 0, eq_ix1 i⟩
  rw [shapeCast_a1_a_apply, col_apply m c _ rfl _ rfl r]
  exact Cert.Bridge.row_bridge _ _ hX hC r

end Cert.KernelValue

end
-- ==== Proof.Finite.lean ====
/-
  What the precondition says entry by entry: every feature and every centre coordinate is a real number.

  The precondition is the conjunction of two "all entries satisfy |x| < +∞" tests. Its value being 1 makes each
  test 1, a test over a whole array being 1 makes every entry's comparison 1, and an extended real whose absolute
  value is below +∞ is neither infinity.
-/
import proofs.«176569_j90409061580855_2_alg».proof.Pre_finite_inputs
import proofs.«176569_j90409061580855_2_alg».proof.Proof.LibWords
import Idealize.ShloMosaic.Lib.ReduceAll
import Idealize.ShloMosaic.Lib.ValueIdx

namespace Cert.Finite

open Idealize.ShloMosaic Cert.Lib.Words

theorem finite_of_pre [Cert.Pre_finite_inputs.Facts]
    (A0 : FVec Ideal Cert.Pre_finite_inputs.S16384x1024 .f32) (A1 : IVec Cert.Pre_finite_inputs.S16384 32)
    (A2 : FVec Ideal Cert.Pre_finite_inputs.S1024x1024 .f32)
    (h : Cert.Pre_finite_inputs.fn (F := Ideal) A0 A1 A2 = fun _ => 1#1) :
    (∀ i, ∃ r : ℝ, A0 i = (r : EReal)) ∧ (∀ i, ∃ r : ℝ, A2 i = (r : EReal)) := by
  have h0 := congrFun h ValueIdx.ix0
  dsimp only [Cert.Pre_finite_inputs.fn] at h0
  obtain ⟨ha, hb⟩ := IntOp.andi_eq_one.1 h0
  haveI : Subsingleton Cert.Pre_finite_inputs.S_.Idx := ⟨fun a b => funext fun d => d.elim0⟩
  exact ⟨fun i => real_of_abs_lt_inf _ (Host.reduce_andi_all _ _ _ _ _ ha i),
    fun i => real_of_abs_lt_inf _ (Host.reduce_andi_all _ _ _ _ _ hb i)⟩

end Cert.Finite
-- ==== Proof.lean ====
/-
  The certificate of a nearest-centre distance loss: a kernel that, per block of 1024 feature rows, computes the
  distance of every row to its nearest of 1024 centres, against a reference that forms all 16384 × 1024 distances.

  Both programs expand ‖x − c + ε‖² = ‖x‖² + ‖c‖² − 2⟨x, c⟩ + 2ε(Σx − Σc) + ε²d (the reference literally, entry by
  entry). The kernel splits the expansion into the part that depends only on the row, r_f = ‖x‖² + 2ε·Σx + ε²d, and
  the part that depends on the centre, ‖c‖² − 2ε·Σc (a row computed once on the host) plus ⟨x, −2c⟩ (one matrix
  product against centres scaled by −2 on the host); it takes the minimum over the centres of the second part, adds
  r_f, clamps at 0 and takes the square root once per row. The reference clamps and takes the square root of every
  entry and then the minimum. Over the extended reals with finite inputs the two agree: the split is algebra on
  reals (it distributes ε and −2 over sums, which is why finiteness is used), and y ↦ √(max (r_f + y) 0) is
  monotone and fixes +∞, so it commutes with the minimum. Both programs then apply the same closing lines (mask by
  label = 0, sum, divide by count plus a constant) to that vector.

  The three frame claims are the generated frame proofs (the reference's from its generated run); the idealization
  rewrote nothing, so the fourth claim is trivial; the fifth is assembled here from the modules under Proof/.
-/
import proofs.«176569_j90409061580855_2_alg».proof.Defs
import proofs.«176569_j90409061580855_2_alg».proof.Proof.Gen.Kernel
import proofs.«176569_j90409061580855_2_alg».proof.Proof.Gen.Kernel.Skeleton
import proofs.«176569_j90409061580855_2_alg».proof.Proof.Gen.Kernel.Launch
import proofs.«176569_j90409061580855_2_alg».proof.Proof.Gen.Kernel.Points
import proofs.«176569_j90409061580855_2_alg».proof.Proof.Gen.Kernel.Frame
import proofs.«176569_j90409061580855_2_alg».proof.Proof.Gen.KernelIdeal
import proofs.«176569_j90409061580855_2_alg».proof.Proof.Gen.KernelIdeal.Skeleton
import proofs.«176569_j90409061580855_2_alg».proof.Proof.Gen.KernelIdeal.Launch
import proofs.«176569_j90409061580855_2_alg».proof.Proof.Gen.KernelIdeal.Points
import proofs.«176569_j90409061580855_2_alg».proof.Proof.Gen.KernelIdeal.Frame
import proofs.«176569_j90409061580855_2_alg».proof.Proof.Gen.ReferenceIdeal
import proofs.«176569_j90409061580855_2_alg».proof.Proof.Gen.ReferenceIdeal.Run
import proofs.«176569_j90409061580855_2_alg».proof.Proof.Gen.ReferenceIdeal.Read
import proofs.«176569_j90409061580855_2_alg».proof.Proof.Gen.Pre_finite_inputs
import proofs.«176569_j90409061580855_2_alg».proof.Proof.KernelValue
import proofs.«176569_j90409061580855_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, with finite features and centres, both idealized programs end with
    the reference's result term of the arguments: the kernel's by the per-row identity and the shared closing lines,
    the reference's by its run. -/
theorem algebraic : Cert.algebraic_KernelIdeal_ReferenceIdeal := by
  intro m ρ m' ρ' hpre hagree
  refine ⟨fun c => Cert.ReferenceIdeal.Read.val_main_v37 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Gen.run_main m ρ)
    obtain ⟨hX, hC⟩ := Cert.Finite.finite_of_pre _ _ _ (hpre c)
    exact ⟨((h c).2 Cert.KernelIdeal.main_v19 (Pipeline.mem_restRefs_of Cert.KernelIdeal.main_v19 (by decide) (by decide))).trans
        (Cert.KernelValue.kernel_result m c hX hC),
      ((h c).1 0).trans (((Cert.KernelIdeal.Gen.dats m 0 c).arrAt_in 0 rfl _).trans
        ((Cert.KernelIdeal.Gen.A_eq m c 0).trans (Cert.KernelIdeal.Gen.V_main_arg0 m c))),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c)⟩
  · refine (θ_run Cert.ReferenceIdeal.defs _ _).mono (fun _ h c => ⟨?_, (h c).2⟩)
      (Cert.ReferenceIdeal.Value.run (F := Ideal) m' ρ')
    rw [(h c).1, Cert.ReferenceIdeal.Read.val_main_v37_eq, (hagree c).1, (hagree c).2.1, (hagree c).2.2]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
